-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x112x112 : Shape := ⟨4, ![16, 64, 112, 112]⟩
abbrev S128x576 : Shape := ⟨2, ![128, 576]⟩
abbrev S128x1 : Shape := ⟨2, ![128, 1]⟩
abbrev S_ : Shape := ⟨0, ![]⟩

class Facts : Prop where
  bcast_S_S16x64x112x112 : S_.BroadcastsInDim S16x64x112x112 (![] : Fin 0 → Fin S16x64x112x112.rank)
  reducesTo_S16x64x112x112_S_d0_1_2_3 : S16x64x112x112.ReducesTo [0, 1, 2, 3] S_
  h_S_ : 0 < S_.numel
  bcast_S_S128x576 : S_.BroadcastsInDim S128x576 (![] : Fin 0 → Fin S128x576.rank)
  reducesTo_S128x576_S_d0_1 : S128x576.ReducesTo [0, 1] S_
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S16x64x112x112 .f32) (main_arg1 : FVec F S128x576 .f32) (main_arg2 : FVec F S128x1 .f32) : IVec S_ 1 :=
  let main_v0 : FVec F S16x64x112x112 .f32 := Host.absf main_arg0
  let main_cst : FVec F S_ .f32 := constant S_ .f32 0x7F800000#32
  let main_v1 : FVec F S16x64x112x112 .f32 := broadcastInDim S16x64x112x112 ![] bcast_S_S16x64x112x112 main_cst
  let main_v2 : IVec S16x64x112x112 1 := cmpf .olt main_v0 main_v1
  let main_c : IVec S_ 1 := constantI S_ 1 1#1
  let main_v3 : IVec S_ 1 := (fun x v => Host.reduce IntOp.andi x v reducesTo_S16x64x112x112_S_d0_1_2_3 h_S_) main_v2 main_c
  let main_v4 : FVec F S128x576 .f32 := Host.absf main_arg1
  let main_cst_0 : FVec F S_ .f32 := constant S_ .f32 0x7F800000#32
  let main_v5 : FVec F S128x576 .f32 := broadcastInDim S128x576 ![] bcast_S_S128x576 main_cst_0
  let main_v6 : IVec S128x576 1 := cmpf .olt main_v4 main_v5
  let main_c_1 : IVec S_ 1 := constantI S_ 1 1#1
  let main_v7 : IVec S_ 1 := (fun x v => Host.reduce IntOp.andi x v reducesTo_S128x576_S_d0_1 h_S_) main_v6 main_c_1
  let main_v8 : IVec S_ 1 := andi main_v3 main_v7
  let main_v9 : FVec F S128x1 .f32 := Host.absf main_arg2
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  main_v13
-- ==== Kernel.lean ====
abbrev S16x64x112x112 : Shape := ⟨4, ![16, 64, 112, 112]⟩
abbrev S128x576 : Shape := ⟨2, ![128, 576]⟩
abbrev S128x1 : Shape := ⟨2, ![128, 1]⟩
abbrev S128x64x9 : Shape := ⟨3, ![128, 64, 9]⟩
abbrev S9x128x64 : Shape := ⟨3, ![9, 128, 64]⟩
abbrev S16x128x12100 : Shape := ⟨3, ![16, 128, 12100]⟩
abbrev S1x64x112x112 : Shape := ⟨4, ![1, 64, 112, 112]⟩
abbrev S1x128x12100 : Shape := ⟨3, ![1, 128, 12100]⟩
abbrev S128x12100 : Shape := ⟨2, ![128, 12100]⟩
abbrev S1x64x110x110 : Shape := ⟨4, ![1, 64, 110, 110]⟩
abbrev S64x110x110 : Shape := ⟨3, ![64, 110, 110]⟩
abbrev S64x12100 : Shape := ⟨2, ![64, 12100]⟩
abbrev S1x128x64 : Shape := ⟨3, ![1, 128, 64]⟩
abbrev S128x64 : Shape := ⟨2, ![128, 64]⟩
abbrev S16x128x110x110 : Shape := ⟨4, ![16, 128, 110, 110]⟩

abbrev nBuf : Space → Nat
  | .hbm => 7
  | .vmem => 7
  | .smem => 0
  | _ => 0

abbrev bufTy : (tb : Table) → Fin (tcTables nBuf tb) → BufTy
  | .hbm, ⟨0, _⟩ => ⟨S16x64x112x112, .f32⟩
  | .hbm, ⟨1, _⟩ => ⟨S128x576, .f32⟩
  | .hbm, ⟨2, _⟩ => ⟨S128x1, .f32⟩
  | .hbm, ⟨3, _⟩ => ⟨S128x64x9, .f32⟩
  | .hbm, ⟨4, _⟩ => ⟨S9x128x64, .f32⟩
  | .hbm, ⟨5, _⟩ => ⟨S16x128x12100, .f32⟩
  | .hbm, ⟨6, _⟩ => ⟨S16x128x110x110, .f32⟩
  | .local _ .vmem, ⟨0, _⟩ => ⟨S1x64x112x112, .f32⟩
  | .local _ .vmem, ⟨1, _⟩ => ⟨S1x64x112x112, .f32⟩
  | .local _ .vmem, ⟨2, _⟩ => ⟨S9x128x64, .f32⟩
  | .local _ .vmem, ⟨3, _⟩ => ⟨S128x1, .f32⟩
  | .local _ .vmem, ⟨4, _⟩ => ⟨S1x128x12100, .f32⟩
  | .local _ .vmem, ⟨5, _⟩ => ⟨S1x128x12100, .f32⟩
  | .local _ .vmem, ⟨6, _⟩ => ⟨S128x12100, .f32⟩
  | _, _ => ⟨S16x64x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x112x112 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x12100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128x576_S128x64x9 : S128x576.ShapeCasts S128x64x9
  transposes_S128x64x9_S9x128x64_2_0_1 : S128x64x9.Transposes [2, 0, 1] S9x128x64
  inb_S128x12100_S128x12100_0_0 : ∀ a, (![0, 0] : Fin 2 → Nat) a + S128x12100.size a ≤ S128x12100.size a
  h_S128x12100 : 0 < S128x12100.numel
  shapeCasts_S128x12100_S128x12100 : S128x12100.ShapeCasts S128x12100
  inb_S1x64x112x112_S1x64x110x110_0_0_0_0 : ∀ a, (![0, 0, 0, 0] : Fin 4 → Nat) a + S1x64x110x110.size a ≤ S1x64x112x112.size a
  h_S1x64x110x110 : 0 < S1x64x110x110.numel
  shapeCasts_S1x64x110x110_S64x110x110 : S1x64x110x110.ShapeCasts S64x110x110
  shapeCasts_S64x110x110_S64x12100 : S64x110x110.ShapeCasts S64x12100
  bitsLt_bf16_f32 : FTy.bits .bf16 < FTy.bits .f32
  inb_S9x128x64_S1x128x64_0_0_0 : ∀ a, (![0, 0, 0] : Fin 3 → Nat) a + S1x128x64.size a ≤ S9x128x64.size a
  h_S1x128x64 : 0 < S1x128x64.numel
  shapeCasts_S1x128x64_S128x64 : S1x128x64.ShapeCasts S128x64
  inb_S1x64x112x112_S1x64x110x110_0_0_0_1 : ∀ a, (![0, 0, 0, 1] : Fin 4 → Nat) a + S1x64x110x110.size a ≤ S1x64x112x112.size a
  inb_S9x128x64_S1x128x64_1_0_0 : ∀ a, (![1, 0, 0] : Fin 3 → Nat) a + S1x128x64.size a ≤ S9x128x64.size a
  inb_S1x64x112x112_S1x64x110x110_0_0_0_2 : ∀ a, (![0, 0, 0, 2] : Fin 4 → Nat) a + S1x64x110x110.size a ≤ S1x64x112x112.size a
  inb_S9x128x64_S1x128x64_2_0_0 : ∀ a, (![2, 0, 0] : Fin 3 → Nat) a + S1x128x64.size a ≤ S9x128x64.size a
  inb_S1x64x112x112_S1x64x110x110_0_0_1_0 : ∀ a, (![0, 0, 1, 0] : Fin 4 → Nat) a + S1x64x110x110.size a ≤ S1x64x112x112.size a
  inb_S9x128x64_S1x128x64_3_0_0 : ∀ a, (![3, 0, 0] : Fin 3 → Nat) a + S1x128x64.size a ≤ S9x128x64.size a
  inb_S1x64x112x112_S1x64x110x110_0_0_1_1 : ∀ a, (![0, 0, 1, 1] : Fin 4 → Nat) a + S1x64x110x110.size a ≤ S1x64x112x112.size a
  inb_S9x128x64_S1x128x64_4_0_0 : ∀ a, (![4, 0, 0] : Fin 3 → Nat) a + S1x128x64.size a ≤ S9x128x64.size a
  inb_S1x64x112x112_S1x64x110x110_0_0_1_2 : ∀ a, (![0, 0, 1, 2] : Fin 4 → Nat) a + S1x64x110x110.size a ≤ S1x64x112x112.size a
  inb_S9x128x64_S1x128x64_5_0_0 : ∀ a, (![5, 0, 0] : Fin 3 → Nat) a + S1x128x64.size a ≤ S9x128x64.size a
  inb_S1x64x112x112_S1x64x110x110_0_0_2_0 : ∀ a, (![0, 0, 2, 0] : Fin 4 → Nat) a + S1x64x110x110.size a ≤ S1x64x112x112.size a
  inb_S9x128x64_S1x128x64_6_0_0 : ∀ a, (![6, 0, 0] : Fin 3 → Nat) a + S1x128x64.size a ≤ S9x128x64.size a
  inb_S1x64x112x112_S1x64x110x110_0_0_2_1 : ∀ a, (![0, 0, 2, 1] : Fin 4 → Nat) a + S1x64x110x110.size a ≤ S1x64x112x112.size a
  inb_S9x128x64_S1x128x64_7_0_0 : ∀ a, (![7, 0, 0] : Fin 3 → Nat) a + S1x128x64.size a ≤ S9x128x64.size a
  inb_S1x64x112x112_S1x64x110x110_0_0_2_2 : ∀ a, (![0, 0, 2, 2] : Fin 4 → Nat) a + S1x64x110x110.size a ≤ S1x64x112x112.size a
  inb_S9x128x64_S1x128x64_8_0_0 : ∀ a, (![8, 0, 0] : Fin 3 → Nat) a + S1x128x64.size a ≤ S9x128x64.size a
  inb_S128x1_S128x1_0_0 : ∀ a, (![0, 0] : Fin 2 → Nat) a + S128x1.size a ≤ S128x1.size a
  h_S128x1 : 0 < S128x1.numel
  broadcasts_S128x1_S128x12100 : S128x1.Broadcasts S128x12100
  inb_S1x128x12100_S1x128x12100_0_0_0 : ∀ a, (![0, 0, 0] : Fin 3 → Nat) a + S1x128x12100.size a ≤ S1x128x12100.size a
  h_S1x128x12100 : 0 < S1x128x12100.numel
  shapeCasts_S1x128x12100_S128x12100 : S1x128x12100.ShapeCasts S128x12100
  shapeCasts_S128x12100_S1x128x12100 : S128x12100.ShapeCasts S1x128x12100
  shapeCasts_S16x128x12100_S16x128x110x110 : S16x128x12100.ShapeCasts S16x128x110x110
  dot_S128x64_S64x12100_S128x12100_1_0_0_1_n_n_wf : DotDims.WF S128x64 S64x12100 S128x12100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x112x112.size a ≤ S16x64x112x112.size a
  hwx0_0 : ∀ i : grid0.Coords, EltTy.bits .f32 = 32 ∨ (Rect.block (s := S16x64x112x112) S1x64x112x112.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128x64.size a ≤ S9x128x64.size a
  hwx0_1 : ∀ i : grid0.Coords, EltTy.bits .f32 = 32 ∨ (Rect.block (s := S9x128x64) S9x128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x12100.size a ≤ S16x128x12100.size a
  hwx0_3 : ∀ i : grid0.Coords, EltTy.bits .f32 = 32 ∨ (Rect.block (s := S16x128x12100) S1x128x12100.size (cc0_transform_3 i) (hinb0_3 i)).WholeWords (EltTy.packing .f32)

variable [Facts₀]

def dot_S128x64_S64x12100_S128x12100_1_0_0_1_n_n : DotDims S128x64 S64x12100 S128x12100 where
  lhsContracting := [1]
  rhsContracting := [0]
  lhsNonContracting := [0]
  rhsNonContracting := [1]
  lhsBatch := []
  rhsBatch := []
  wf := dot_S128x64_S64x12100_S128x12100_1_0_0_1_n_n_wf

abbrev win0_0 : Pipeline.Window sig grid0 :=
  Pipeline.Window.ofSpec (Memref.whole main_arg0) S1x64x112x112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S9x128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128x12100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x64x112x112 : Shape := ⟨4, ![16, 64, 112, 112]⟩
abbrev S128x576 : Shape := ⟨2, ![128, 576]⟩
abbrev S128x1 : Shape := ⟨2, ![128, 1]⟩
abbrev S16x64x110x110 : Shape := ⟨4, ![16, 64, 110, 110]⟩
abbrev S16x64x1x110x110 : Shape := ⟨5, ![16, 64, 1, 110, 110]⟩
abbrev S16x64x9x110x110 : Shape := ⟨5, ![16, 64, 9, 110, 110]⟩
abbrev S64x9x16x110x110 : Shape := ⟨5, ![64, 9, 16, 110, 110]⟩
abbrev S576x193600 : Shape := ⟨2, ![576, 193600]⟩
abbrev S128x193600 : Shape := ⟨2, ![128, 193600]⟩
abbrev S128x16x110x110 : Shape := ⟨4, ![128, 16, 110, 110]⟩
abbrev S16x128x110x110 : Shape := ⟨4, ![16, 128, 110, 110]⟩

abbrev nBuf : Space → Nat
  | .hbm => 29
  | .vmem => 0
  | .smem => 0
  | _ => 0

abbrev bufTy : (tb : Table) → Fin (tcTables nBuf tb) → BufTy
  | .hbm, ⟨0, _⟩ => ⟨S16x64x112x112, .f32⟩
  | .hbm, ⟨1, _⟩ => ⟨S128x576, .f32⟩
  | .hbm, ⟨2, _⟩ => ⟨S128x1, .f32⟩
  | .hbm, ⟨3, _⟩ => ⟨S16x64x110x110, .f32⟩
  | .hbm, ⟨4, _⟩ => ⟨S16x64x110x110, .f32⟩
  | .hbm, ⟨5, _⟩ => ⟨S16x64x110x110, .f32⟩
  | .hbm, ⟨6, _⟩ => ⟨S16x64x110x110, .f32⟩
  | .hbm, ⟨7, _⟩ => ⟨S16x64x110x110, .f32⟩
  | .hbm, ⟨8, _⟩ => ⟨S16x64x110x110, .f32⟩
  | .hbm, ⟨9, _⟩ => ⟨S16x64x110x110, .f32⟩
  | .hbm, ⟨10, _⟩ => ⟨S16x64x110x110, .f32⟩
  | .hbm, ⟨11, _⟩ => ⟨S16x64x110x110, .f32⟩
  | .hbm, ⟨12, _⟩ => ⟨S16x64x1x110x110, .f32⟩
  | .hbm, ⟨13, _⟩ => ⟨S16x64x1x110x110, .f32⟩
  | .hbm, ⟨14, _⟩ => ⟨S16x64x1x110x110, .f32⟩
  | .hbm, ⟨15, _⟩ => ⟨S16x64x1x110x110, .f32⟩
  | .hbm, ⟨16, _⟩ => ⟨S16x64x1x110x110, .f32⟩
  | .hbm, ⟨17, _⟩ => ⟨S16x64x1x110x110, .f32⟩
  | .hbm, ⟨18, _⟩ => ⟨S16x64x1x110x110, .f32⟩
  | .hbm, ⟨19, _⟩ => ⟨S16x64x1x110x110, .f32⟩
  | .hbm, ⟨20, _⟩ => ⟨S16x64x1x110x110, .f32⟩
  | .hbm, ⟨21, _⟩ => ⟨S16x64x9x110x110, .f32⟩
  | .hbm, ⟨22, _⟩ => ⟨S64x9x16x110x110, .f32⟩
  | .hbm, ⟨23, _⟩ => ⟨S576x193600, .f32⟩
  | .hbm, ⟨24, _⟩ => ⟨S128x193600, .f32⟩
  | .hbm, ⟨25, _⟩ => ⟨S128x193600, .f32⟩
  | .hbm, ⟨26, _⟩ => ⟨S128x193600, .f32⟩
  | .hbm, ⟨27, _⟩ => ⟨S128x16x110x110, .f32⟩
  | .hbm, ⟨28, _⟩ => ⟨S16x128x110x110, .f32⟩
  | _, _ => ⟨S16x64x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩

abbrev nD : Nat := 1
abbrev τ : Topo := Topo.v7x

variable {F : FTy → Type} [FloatOps F]

class Facts₀ : Prop where
  slices_S16x64x112x112_S16x64x110x110_0_0_0_0 : S16x64x112x112.Slices ![0, 0, 0, 0] S16x64x110x110
  slices_S16x64x112x112_S16x64x110x110_0_0_0_1 : S16x64x112x112.Slices ![0, 0, 0, 1] S16x64x110x110
  slices_S16x64x112x112_S16x64x110x110_0_0_0_2 : S16x64x112x112.Slices ![0, 0, 0, 2] S16x64x110x110
  slices_S16x64x112x112_S16x64x110x110_0_0_1_0 : S16x64x112x112.Slices ![0, 0, 1, 0] S16x64x110x110
  slices_S16x64x112x112_S16x64x110x110_0_0_1_1 : S16x64x112x112.Slices ![0, 0, 1, 1] S16x64x110x110
  slices_S16x64x112x112_S16x64x110x110_0_0_1_2 : S16x64x112x112.Slices ![0, 0, 1, 2] S16x64x110x110
  slices_S16x64x112x112_S16x64x110x110_0_0_2_0 : S16x64x112x112.Slices ![0, 0, 2, 0] S16x64x110x110
  slices_S16x64x112x112_S16x64x110x110_0_0_2_1 : S16x64x112x112.Slices ![0, 0, 2, 1] S16x64x110x110
  slices_S16x64x112x112_S16x64x110x110_0_0_2_2 : S16x64x112x112.Slices ![0, 0, 2, 2] S16x64x110x110
  bcast_S16x64x110x110_S16x64x1x110x110_0_1_3_4 : S16x64x110x110.BroadcastsInDim S16x64x1x110x110 (![0, 1, 3, 4] : Fin 4 → Fin S16x64x1x110x110.rank)
  concatenates_S16x64x1x110x110_S16x64x1x110x110_S16x64x1x110x110_S16x64x1x110x110_S16x64x1x110x110_S16x64x1x110x110_S16x64x1x110x110_S16x64x1x110x110_S16x64x1x110x110_S16x64x9x110x110_d2 : Shape.Concatenates [S16x64x1x110x110, S16x64x1x110x110, S16x64x1x110x110, S16x64x1x110x110, S16x64x1x110x110, S16x64x1x110x110, S16x64x1x110x110, S16x64x1x110x110, S16x64x1x110x110] S16x64x9x110x110 2
  transposes_S16x64x9x110x110_S64x9x16x110x110_1_2_0_3_4 : S16x64x9x110x110.Transposes [1, 2, 0, 3, 4] S64x9x16x110x110
  shapeCasts_S64x9x16x110x110_S576x193600 : S64x9x16x110x110.ShapeCasts S576x193600
  bcast_S128x1_S128x193600_0_1 : S128x1.BroadcastsInDim S128x193600 (![0, 1] : Fin 2 → Fin S128x193600.rank)
  shapeCasts_S128x193600_S128x16x110x110 : S128x193600.ShapeCasts S128x16x110x110
  transposes_S128x16x110x110_S16x128x110x110_1_0_2_3 : S128x16x110x110.Transposes [1, 0, 2, 3] S16x128x110x110
  dot_S128x576_S576x193600_S128x193600_1_0_0_1_n_n_wf : DotDims.WF S128x576 S576x193600 S128x193600 [1] [0] [0] [1] [] []

variable [Facts₀]

def dot_S128x576_S576x193600_S128x193600_1_0_0_1_n_n : DotDims S128x576 S576x193600 S128x193600 where
  lhsContracting := [1]
  rhsContracting := [0]
  lhsNonContracting := [0]
  rhsNonContracting := [1]
  lhsBatch := []
  rhsBatch := []
  wf := dot_S128x576_S576x193600_S128x193600_1_0_0_1_n_n_wf

class Facts : Prop extends Facts₀ where

variable [Facts]
-- ==== Proof.LibBatchStats.lean ====
/-
  Batch statistics on the extended reals.

  * The coercion of a finite sum of real numbers into the extended reals is the sum of the coercions.
  * The population variance of finitely many REAL numbers, computed as the mean of the squared deviations from
    the mean, equals the mean of the squares minus the squared mean; stated over the reals and, with the mean taken
    as a product with the reciprocal of the count, over the extended reals at real (finite) entries.  Over the
    extended reals the identity needs the entries finite: with an infinite entry the deviation is a difference
    of infinities.
  * A sum over a range of `a * b` indices is the sum, block by block, of the `a` consecutive blocks of `b` indices
    (a column sum accumulated one row block at a time against the sum over all rows); it holds in every
    commutative additive monoid, the extended reals included, with no finiteness hypothesis.
-/
import Mathlib.Data.EReal.Inv
import Mathlib.Algebra.BigOperators.Fin
import Mathlib.Tactic

namespace Cert.Lib.BatchStats

open Finset

/-- The coercion `ℝ → EReal` commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Mean of squared deviations = mean of squares − squared mean, over the reals; `n` is the number of entries. -/
theorem var_real {ι : Type*} [Fintype ι] (z : ι → ℝ) (n : ℝ) (hn : n ≠ 0)
    (hcard : (Fintype.card ι : ℝ) = n) :
    (∑ i, (z i - (∑ j, z j) / n) * (z i - (∑ j, z j) / n)) / n
      = (∑ i, z i * z i) / n - ((∑ j, z j) / n) * ((∑ j, z j) / n) := by
  have h1 : ∑ i, (z i - (∑ j, z j) / n) * (z i - (∑ j, z j) / n)
      = (∑ i, z i * z i) - 2 * ((∑ j, z j) / n) * (∑ j, z j) + n * (((∑ j, z j) / n) * ((∑ j, z j) / n)) := by
    have h2 : ∀ i, (z i - (∑ j, z j) / n) * (z i - (∑ j, z j) / n)
        = z i * z i - 2 * ((∑ j, z j) / n) * z i + ((∑ j, z j) / n) * ((∑ j, z j) / n) := fun i => by ring
    simp only [h2, Finset.sum_add_distrib, Finset.sum_sub_distrib, ← Finset.mul_sum, Finset.sum_const,
      Finset.card_univ, nsmul_eq_mul, hcard]
    ring
  rw [h1]
  field_simp
  ring

/-- The same identity over the extended reals at real entries, the divisions by the count `n` written as
    products with the real `1 / n` (what a quotient by a nonzero real constant is on the extended reals). -/
theorem var_ereal {ι : Type*} [Fintype ι] (x : ι → ℝ) (n : ℝ) (hn : n ≠ 0)
    (hcard : (Fintype.card ι : ℝ) = n) :
    (∑ i, ((x i : EReal) - (∑ j, (x j : EReal)) * ((1 / n : ℝ) : EReal))
          * ((x i : EReal) - (∑ j, (x j : EReal)) * ((1 / n : ℝ) : EReal))) * ((1 / n : ℝ) : EReal)
      = (∑ i, (x i : EReal) * (x i : EReal)) * ((1 / n : ℝ) : EReal)
        - ((∑ j, (x j : EReal)) * ((1 / n : ℝ) : EReal)) * ((∑ j, (x j : EReal)) * ((1 / n : ℝ) : EReal)) := by
  have hr := var_real x n hn hcard
  simp only [div_eq_mul_inv] at hr
  simp only [one_div]
  have e1 : (∑ j, (x j : EReal)) * ((n⁻¹ : ℝ) : EReal) = (((∑ j, x j) * n⁻¹ : ℝ) : EReal) := by
    rw [← coe_sum, ← EReal.coe_mul]
  rw [e1]
  have e2 : ∀ i, ((x i : EReal) - (((∑ j, x j) * n⁻¹ : ℝ) : EReal)) * ((x i : EReal) - (((∑ j, x j) * n⁻¹ : ℝ) : EReal))
      = (((x i - (∑ j, x j) * n⁻¹) * (x i - (∑ j, x j) * n⁻¹) : ℝ) : EReal) := fun i => by
    rw [← EReal.coe_sub, ← EReal.coe_mul]
  have e3 : ∀ i, (x i : EReal) * (x i : EReal) = ((x i * x i : ℝ) : EReal) := fun i => (EReal.coe_mul _ _).symm
  rw [Finset.sum_congr rfl (fun i _ => e2 i), Finset.sum_congr rfl (fun i _ => e3 i), ← coe_sum, ← coe_sum,
    ← EReal.coe_mul, ← EReal.coe_mul, ← EReal.coe_mul, ← EReal.coe_sub]
  exact congrArg _ hr

/-- A sum over `a * b` consecutive indices, block by block: block `t` holds the indices `r + b * t`, `r < b`. -/
theorem sum_blocks {M : Type*} [AddCommMonoid M] (a b : ℕ) (f : Fin (a * b) → M) :
    ∑ i, f i = ∑ t : Fin a, ∑ r : Fin b, f (finProdFinEquiv (t, r)) := by
  rw [← Fintype.sum_prod_type' (f := fun (t : Fin a) (r : Fin b) => f (finProdFinEquiv (t, r)))]
  exact (Fintype.sum_equiv finProdFinEquiv _ _ (fun _ => rfl)).symm

/-- The index of row `r` of block `t`. -/
theorem block_index_val (a b : ℕ) (t : Fin a) (r : Fin b) :
    (finProdFinEquiv (t, r) : Fin (a * b)).val = r.val + b * t.val := rfl

end Cert.Lib.BatchStats
-- ==== Proof.ConvSpec.lean ====
/-
  The law that joins the two programs.

  The kernel adds, tap by tap (k = 0 … 8), a sum over the 64 channels; its weight for tap k and channel c is entry
  9·c + k of the weight row.  The reference takes one sum over the 576 entries p of the weight row, entry p standing
  for channel p / 9 and tap p % 9.  Cutting the 576 entries into 64 consecutive blocks of 9 and exchanging the two
  finite sums turns one into the other; addition of extended reals is commutative and associative, so no finiteness
  is needed.  The kernel's flattened position 110·h + w splits back into row h and column w.
-/
import Idealize.ShloMosaic.PureOps.Ideal
import Idealize.ShloMosaic.Lib.ValueIdx
import proofs.«104167_j11776800325854_1_alg».proof.Proof.LibBatchStats

noncomputable section

namespace Cert.ConvSpec

open Idealize.ShloMosaic Idealize.ShloMosaic.ValueIdx

/-- Nine taps of 64 channels, with the weight row read at 9·c + k and the position read as 110·h + w, against the one
    sum over the 576 entries of the weight row. -/
theorem taps_eq_row (X : (⟨4, ![16, 64, 112, 112]⟩ : Shape).Idx → EReal) (Wt : (⟨2, ![128, 576]⟩ : Shape).Idx → EReal)
    (n : Fin 16) (o : Fin 128) (h w : Fin 110) :
    (∑ k : Fin 9, ∑ c : Fin 64,
        Wt (ix2 o (⟨c.val * 9 + k.val, by have := c.isLt; have := k.isLt; omega⟩ : Fin 576)) *
          X (ix4 n c (⟨(h.val * 110 + w.val) / 110 + k.val / 3, by have := h.isLt; have := w.isLt; have := k.isLt; omega⟩ : Fin 112)
            (⟨(h.val * 110 + w.val) % 110 + k.val % 3, by omega⟩ : Fin 112)))
      = ∑ p : Fin 576, Wt (ix2 o p) *
          X (ix4 n (⟨p.val / 9, by have := p.isLt; omega⟩ : Fin 64)
            (⟨h.val + p.val % 9 / 3, by have := h.isLt; omega⟩ : Fin 112)
            (⟨w.val + p.val % 9 % 3, by have := w.isLt; omega⟩ : Fin 112)) := by
  have hh := h.isLt; have hw := w.isLt
  symm
  refine (Cert.Lib.BatchStats.sum_blocks 64 9 _).trans ?_
  rw [Finset.sum_comm]
  refine Finset.sum_congr rfl fun k _ => Finset.sum_congr rfl fun c _ => ?_
  have hk := k.isLt; have hc := c.isLt
  have e : (finProdFinEquiv (c, k) : Fin (64 * 9)).val = k.val + 9 * c.val := rfl
  refine congrArg₂ (· * ·) (congrArg Wt (funext fun a => Fin.ext ?_)) (congrArg X (funext fun a => Fin.ext ?_))
  · match a with
    | ⟨0, _⟩ => rfl
    | ⟨1, _⟩ => show (finProdFinEquiv (c, k) : Fin (64 * 9)).val = c.val * 9 + k.val; omega
  · match a with
    | ⟨0, _⟩ => rfl
    | ⟨1, _⟩ => show (finProdFinEquiv (c, k) : Fin (64 * 9)).val / 9 = c.val; omega
    | ⟨2, _⟩ => show h.val + (finProdFinEquiv (c, k) : Fin (64 * 9)).val % 9 / 3 = (h.val * 110 + w.val) / 110 + k.val / 3; omega
    | ⟨3, _⟩ => show w.val + (finProdFinEquiv (c, k) : Fin (64 * 9)).val % 9 % 3 = (h.val * 110 + w.val) % 110 + k.val % 3; omega

end Cert.ConvSpec

end
-- ==== Proof.ConvBody.lean ====
/-
  One grid point of the convolution kernel, as a value.

  At grid point n the body holds image n (64 channels of 112 × 112), the nine 128 × 64 weight matrices (one per
  tap (i, j) of the 3 × 3 stencil) and the bias column.  It clears a 128 × 12100 accumulator, and for each tap adds the
  product of that tap's weight matrix with the 64 × 12100 matrix whose row c is the 110 × 110 window of channel c
  shifted by (i, j), flattened row by row; finally it adds the bias down every column.  Every store to the accumulator
  covers it whole, so each read-back is the value stored just before: the block written out is the ten-deep chain
    ((((0 + W₀·X₀) + W₁·X₁) + ⋯ + W₈·X₈) + bias.
-/
import proofs.«104167_j11776800325854_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Idealize.ShloMosaic.View

variable {Val : EltTy → Type} {S : Shape} {e : EltTy}

/-- A load of the whole shape after a list of stores whose LAST one covered the whole shape reads that store's
    payload, whatever the earlier stores were. -/
theorem readCov_cons_unit_zero [∀ e, Nonempty (Val e)] {sig : RefSig} {κ : Kind} {sp : Space}
    {off : Fin S.rank → Nat} (h : off = fun _ => 0) (v : View sig κ sp S e)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One tap: the accumulator plus the product of the tap's weight matrix (its leading unit axis dropped) with the
    tap's window of the image (its leading unit axis dropped, each channel's 110 × 110 window flattened to a row). -/
def tap (xt : Vec F S1x64x110x110 .f32) (wt : Vec F S1x128x64 .f32) (acc : FVec F S128x12100 .f32) : FVec F S128x12100 .f32 :=
  addf acc (matmul dot_S128x64_S64x12100_S128x12100_1_0_0_1_n_n none
    (truncf .bf16 (shapeCast S128x64 wt shapeCasts_S1x128x64_S128x64) bitsLt_bf16_f32)
    (truncf .bf16 (shapeCast S64x12100 (shapeCast S64x110x110 xt shapeCasts_S1x64x110x110_S64x110x110) shapeCasts_S64x110x110_S64x12100) bitsLt_bf16_f32)
    (constant S128x12100 .f32 0x00000000#32))

/-- The cleared accumulator. -/
def clear : FVec F S128x12100 .f32 := broadcast S128x12100 (Scalar.ofBits .f32 0x00000000#32)

/-- The last step: the bias column added down every column, as a block with a leading unit axis. -/
def addBias (acc : FVec F S128x12100 .f32) (b : Vec F S128x1 .f32) : FVec F S1x128x12100 .f32 :=
  shapeCast S1x128x12100 (addf acc (broadcastTo S128x12100 b broadcasts_S128x1_S128x12100)) shapeCasts_S128x12100_S1x128x12100

/-- The printed pieces of the body are these three operations. -/
theorem pay3_eq : k0_pay3 (F := F) = clear := by unfold k0_pay3 clear; exact shapeCast_self _ _
theorem pay4_eq (a : Vec F S1x64x110x110 .f32) (w : Vec F S1x128x64 .f32) (s : Vec F S128x12100 .f32) : k0_pay4 a w s = tap a w s := by
  unfold k0_pay4 tap; exact shapeCast_self _ _
theorem pay5_eq (a : Vec F S1x64x110x110 .f32) (w : Vec F S1x128x64 .f32) (s : Vec F S128x12100 .f32) : k0_pay5 a w s = tap a w s := by
  unfold k0_pay5 tap; exact shapeCast_self _ _
theorem pay6_eq (a : Vec F S1x64x110x110 .f32) (w : Vec F S1x128x64 .f32) (s : Vec F S128x12100 .f32) : k0_pay6 a w s = tap a w s := by
  unfold k0_pay6 tap; exact shapeCast_self _ _
theorem pay7_eq (a : Vec F S1x64x110x110 .f32) (w : Vec F S1x128x64 .f32) (s : Vec F S128x12100 .f32) : k0_pay7 a w s = tap a w s := by
  unfold k0_pay7 tap; exact shapeCast_self _ _
theorem pay9_eq (a : Vec F S1x64x110x110 .f32) (w : Vec F S1x128x64 .f32) (s : Vec F S128x12100 .f32) : k0_pay9 (k0_pay8 a) w s = tap a w s := by
  unfold k0_pay9 k0_pay8 tap; exact shapeCast_self _ _
theorem pay10_eq (a : Vec F S1x64x110x110 .f32) (w : Vec F S1x128x64 .f32) (s : Vec F S128x12100 .f32) : k0_pay10 a w s = tap a w s := by
  unfold k0_pay10 tap; exact shapeCast_self _ _
theorem pay13_eq (a : Vec F S1x64x110x110 .f32) (w : Vec F S1x128x64 .f32) (s : Vec F S128x12100 .f32) : k0_pay13 (k0_pay11 a) (k0_pay12 w) s = tap a w s := by
  unfold k0_pay13 k0_pay11 k0_pay12 tap; exact shapeCast_self _ _
theorem pay14_eq (a : Vec F S1x64x110x110 .f32) (w : Vec F S1x128x64 .f32) (s : Vec F S128x12100 .f32) : k0_pay14 a w s = tap a w s := by
  unfold k0_pay14 tap; exact shapeCast_self _ _
theorem pay15_eq (a : Vec F S1x64x110x110 .f32) (w : Vec F S1x128x64 .f32) (s : Vec F S128x12100 .f32) : k0_pay1 (k0_pay15 a w s) = tap a w s := by
  unfold k0_pay1 k0_pay15 tap; exact shapeCast_self _ _
theorem pay2_eq (s : Vec F S128x12100 .f32) (b : Vec F S128x1 .f32) : k0_pay2 s b = addBias s b := rfl

/-- Tap (i, j)'s window of the image: rows i … i + 109 and columns j … j + 109 of every channel. -/
abbrev win (x0 : Vec F S1x64x112x112 .f32) (off : Fin 4 → Nat) (inb : ∀ a, off a + S1x64x110x110.size a ≤ S1x64x112x112.size a) :
    Vec F S1x64x110x110 .f32 := View.ld x0 (Rect.unit off S1x64x110x110.size inb)

/-- Tap k's weight matrix. -/
abbrev wmat (x1 : Vec F S9x128x64 .f32) (off : Fin 3 → Nat) (inb : ∀ a, off a + S1x128x64.size a ≤ S9x128x64.size a) :
    Vec F S1x128x64 .f32 := View.ld x1 (Rect.unit off S1x128x64.size inb)

/-- What the body writes out, of the image, the weights and the bias it holds. -/
def block (x0 : Vec F S1x64x112x112 .f32) (x1 : Vec F S9x128x64 .f32) (x2 : Vec F S128x1 .f32) : Vec F S1x128x12100 .f32 :=
  addBias
    (tap (win x0 ![0, 0, 2, 2] inb_S1x64x112x112_S1x64x110x110_0_0_2_2) (wmat x1 ![8, 0, 0] inb_S9x128x64_S1x128x64_8_0_0)
    (tap (win x0 ![0, 0, 2, 1] inb_S1x64x112x112_S1x64x110x110_0_0_2_1) (wmat x1 ![7, 0, 0] inb_S9x128x64_S1x128x64_7_0_0)
    (tap (win x0 ![0, 0, 2, 0] inb_S1x64x112x112_S1x64x110x110_0_0_2_0) (wmat x1 ![6, 0, 0] inb_S9x128x64_S1x128x64_6_0_0)
    (tap (win x0 ![0, 0, 1, 2] inb_S1x64x112x112_S1x64x110x110_0_0_1_2) (wmat x1 ![5, 0, 0] inb_S9x128x64_S1x128x64_5_0_0)
    (tap (win x0 ![0, 0, 1, 1] inb_S1x64x112x112_S1x64x110x110_0_0_1_1) (wmat x1 ![4, 0, 0] inb_S9x128x64_S1x128x64_4_0_0)
    (tap (win x0 ![0, 0, 1, 0] inb_S1x64x112x112_S1x64x110x110_0_0_1_0) (wmat x1 ![3, 0, 0] inb_S9x128x64_S1x128x64_3_0_0)
    (tap (win x0 ![0, 0, 0, 2] inb_S1x64x112x112_S1x64x110x110_0_0_0_2) (wmat x1 ![2, 0, 0] inb_S9x128x64_S1x128x64_2_0_0)
    (tap (win x0 ![0, 0, 0, 1] inb_S1x64x112x112_S1x64x110x110_0_0_0_1) (wmat x1 ![1, 0, 0] inb_S9x128x64_S1x128x64_1_0_0)
    (tap (win x0 ![0, 0, 0, 0] inb_S1x64x112x112_S1x64x110x110_0_0_0_0) (wmat x1 ![0, 0, 0] inb_S9x128x64_S1x128x64_0_0_0)
      clear)))))))))
    x2

/-- The output's staging buffer after the body: the chain of nine taps from the cleared accumulator, plus the bias. -/
theorem out_eq (c : Dev nD) (i : grid0.Coords) (arg1 : Memref sig .tc .vmem S1x64x112x112 .f32) (harg1 : arg1.IsWhole)
    (arg2 : Memref sig .tc .vmem S9x128x64 .f32) (harg2 : arg2.IsWhole) (arg3 : Memref sig .tc .vmem S128x1 .f32) (harg3 : arg3.IsWhole)
    (arg4 : Memref sig .tc .vmem S1x128x12100 .f32) (harg4 : arg4.IsWhole) (arg5 : Memref sig .tc .vmem S128x12100 .f32) (harg5 : arg5.IsWhole)
    (x0 : Vec F S1x64x112x112 .f32) (x1 : Vec F S9x128x64 .f32) (x2 : Vec F S128x1 .f32) :
    out0_A_3 c i arg1 harg1 arg2 harg2 arg3 harg3 arg4 harg4 arg5 harg5 x0 x1 x2 = block x0 x1 x2 := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_words
  rw [View.canon_unit_zero hz3]
  rw [View.readCov_cons_unit_zero hz2, View.readCov_cons_unit_zero hz2, View.readCov_cons_unit_zero hz2,
    View.readCov_cons_unit_zero hz2, View.readCov_cons_unit_zero hz2, View.readCov_cons_unit_zero hz2,
    View.readCov_cons_unit_zero hz2, View.readCov_cons_unit_zero hz2, View.readCov_cons_unit_zero hz2,
    View.readCov_unit_zero _ hz2]
  simp only [View.readAt_eq_ld, harg1.read_unread, harg2.read_unread, harg3.read_unread, View.ld_unit_zero (S := S128x1) hz2,
    pay2_eq, pay15_eq, pay14_eq, pay13_eq, pay10_eq, pay9_eq, pay7_eq, pay6_eq, pay5_eq, pay4_eq, pay3_eq]
  rfl

end Cert.KernelIdeal.Body

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.ConvBodyValue.lean ====
/-
  One grid point of the convolution kernel, entry by entry, on the extended reals.

  Entry (o, q) of the block the body writes, q = 110·h + w, is
    ((((0 + Σ₀) + Σ₁) + ⋯ + Σ₈) + bias(o),   Σₖ = ∑ over channels c of weight(k, o, c) · image(c, h + k / 3, w + k % 3):
  a matrix product into a zero accumulator is the plain sum over the contracted axis, rounding to bf16 is the identity,
  and the reshapes only rename indices.  Addition of extended reals is associative, so the chain is the double sum
  over the nine taps and the 64 channels, plus the bias.
-/
import proofs.«104167_j11776800325854_1_alg».proof.Proof.ConvBody
import proofs.«104167_j11776800325854_1_alg».proof.Proof.LibPlainDot
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen

/-- Row q / 110 and column q % 110 of a flattened 110 × 110 window. -/
abbrev hrow (q : Fin 12100) : Fin 110 := ⟨q.val / 110, by have := q.isLt; omega⟩
abbrev wcol (q : Fin 12100) : Fin 110 := ⟨q.val % 110, by omega⟩

/-- The image entry tap (i, j) multiplies at output position q of channel c: row h + i, column w + j. -/
abbrev pix (c : Fin 64) (q : Fin 12100) (i j : Fin 3) : S1x64x112x112.Idx :=
  ix4 (0 : Fin 1) c (⟨q.val / 110 + i.val, by have := q.isLt; have := i.isLt; omega⟩ : Fin 112)
    (⟨q.val % 110 + j.val, by have := j.isLt; omega⟩ : Fin 112)

/-- A tap's window read at an entry is the image at the shifted entry. -/
theorem win_apply (x0 : Vec Ideal S1x64x112x112 .f32) (off : Fin 4 → Nat) (inb : ∀ a, off a + S1x64x110x110.size a ≤ S1x64x112x112.size a)
    (i j : Fin 3) (h0 : off 0 = 0) (h1 : off 1 = 0) (h2 : off 2 = i.val) (h3 : off 3 = j.val) (c : Fin 64) (q : Fin 12100) :
    win x0 off inb (ix4 (0 : Fin 1) c (hrow q) (wcol q)) = x0 (pix c q i j) := by
  show x0 _ = x0 _
  refine congrArg x0 (funext fun a => Fin.ext ?_)
  match a with
  | ⟨0, _⟩ => show off 0 + 1 * 0 = 0; omega
  | ⟨1, _⟩ => show off 1 + 1 * c.val = c.val; omega
  | ⟨2, _⟩ => show off 2 + 1 * (q.val / 110) = q.val / 110 + i.val; omega
  | ⟨3, _⟩ => show off 3 + 1 * (q.val % 110) = q.val % 110 + j.val; omega

/-- Tap k's weight matrix read at an entry is the stacked weights at (k, o, c). -/
theorem wmat_apply (x1 : Vec Ideal S9x128x64 .f32) (off : Fin 3 → Nat) (inb : ∀ a, off a + S1x128x64.size a ≤ S9x128x64.size a)
    (k : Fin 9) (h0 : off 0 = k.val) (h1 : off 1 = 0) (h2 : off 2 = 0) (o : Fin 128) (c : Fin 64) :
    wmat x1 off inb (ix3 (0 : Fin 1) o c) = x1 (ix3 k o c) := by
  show x1 _ = x1 _
  refine congrArg x1 (funext fun a => Fin.ext ?_)
  match a with
  | ⟨0, _⟩ => show off 0 + 1 * 0 = k.val; omega
  | ⟨1, _⟩ => show off 1 + 1 * o.val = o.val; omega
  | ⟨2, _⟩ => show off 2 + 1 * c.val = c.val; omega

local notation "DD" => dot_S128x64_S64x12100_S128x12100_1_0_0_1_n_n

theorem dd_lhs0 (j : S128x12100.Idx) (k : (DD).contr.Idx) : ((DD).lhsIdx j k 0).val = (j 0).val := by
  unfold DotDims.lhsIdx
  rw [dif_neg (show ¬(0 : Fin S128x64.rank) ∈ (DD).lhsBatch by decide), dif_pos (show (0 : Fin S128x64.rank) ∈ (DD).lhsNonContracting by decide)]
  rfl
theorem dd_rhs1 (j : S128x12100.Idx) (k : (DD).contr.Idx) : ((DD).rhsIdx j k 1).val = (j 1).val := by
  unfold DotDims.rhsIdx
  rw [dif_neg (show ¬(1 : Fin S64x12100.rank) ∈ (DD).rhsBatch by decide), dif_pos (show (1 : Fin S64x12100.rank) ∈ (DD).rhsNonContracting by decide)]
  rfl

/-- One tap at an entry: the accumulator's entry plus the sum over the 64 channels. -/
theorem tap_apply (xt : Vec Ideal S1x64x110x110 .f32) (wt : Vec Ideal S1x128x64 .f32) (acc : FVec Ideal S128x12100 .f32)
    (o : Fin 128) (q : Fin 12100) :
    tap xt wt acc (ix2 o q) = acc (ix2 o q) + ∑ c : Fin 64, wt (ix3 (0 : Fin 1) o c) * xt (ix4 (0 : Fin 1) c (hrow q) (wcol q)) := by
  unfold tap
  refine congrArg (acc (ix2 o q) + ·) ?_
  refine (Cert.LibPlainDot.matmul_zero_apply (DD) rfl rfl rfl rfl dd_lhs0 dd_rhs1 none _ _ o q).trans ?_
  refine Finset.sum_congr rfl fun c _ => ?_
  refine congrArg₂ (· * ·) ?_ ?_
  · show shapeCast S128x64 wt shapeCasts_S1x128x64_S128x64 (ix2 o c) = _
    exact shapeCast_apply wt shapeCasts_S1x128x64_S128x64 (ix2 o c) (ix3 (0 : Fin 1) o c)
      (by rw [Shape.rowMajor_val_three, Shape.rowMajor_val_two]; show (0 * 128 + o.val) * 64 + c.val = o.val * 64 + c.val; omega)
  · show shapeCast S64x12100 (shapeCast S64x110x110 xt shapeCasts_S1x64x110x110_S64x110x110) shapeCasts_S64x110x110_S64x12100 (ix2 c q) = _
    refine (shapeCast_apply (shapeCast S64x110x110 xt shapeCasts_S1x64x110x110_S64x110x110) shapeCasts_S64x110x110_S64x12100 (ix2 c q) (ix3 c (hrow q) (wcol q))
      (by rw [Shape.rowMajor_val_three, Shape.rowMajor_val_two]; show (c.val * 110 + q.val / 110) * 110 + q.val % 110 = c.val * 12100 + q.val; omega)).trans ?_
    exact shapeCast_apply xt shapeCasts_S1x64x110x110_S64x110x110 (ix3 c (hrow q) (wcol q)) (ix4 (0 : Fin 1) c (hrow q) (wcol q))
      (by rw [Shape.rowMajor_val_four, Shape.rowMajor_val_three]; show ((0 * 64 + c.val) * 110 + q.val / 110) * 110 + q.val % 110 = (c.val * 110 + q.val / 110) * 110 + q.val % 110; omega)

/-- Tap k's sum over the channels at output entry (o, q): its stencil offsets are (k / 3, k % 3). -/
def tapSum (x0 : Vec Ideal S1x64x112x112 .f32) (x1 : Vec Ideal S9x128x64 .f32) (o : Fin 128) (q : Fin 12100) (k : Fin 9) : EReal :=
  ∑ c : Fin 64, x1 (ix3 k o c) * x0 (pix c q ⟨k.val / 3, by have := k.isLt; omega⟩ ⟨k.val % 3, by omega⟩)

/-- One tap of the chain, read through the tap's window and weight matrix. -/
theorem tap_sum (x0 : Vec Ideal S1x64x112x112 .f32) (x1 : Vec Ideal S9x128x64 .f32)
    (offx : Fin 4 → Nat) (inbx : ∀ a, offx a + S1x64x110x110.size a ≤ S1x64x112x112.size a)
    (offw : Fin 3 → Nat) (inbw : ∀ a, offw a + S1x128x64.size a ≤ S9x128x64.size a) (k : Fin 9)
    (hw0 : offw 0 = k.val) (hw1 : offw 1 = 0) (hw2 : offw 2 = 0)
    (hx0 : offx 0 = 0) (hx1 : offx 1 = 0) (hx2 : offx 2 = k.val / 3) (hx3 : offx 3 = k.val % 3)
    (acc : FVec Ideal S128x12100 .f32) (o : Fin 128) (q : Fin 12100) :
    tap (win x0 offx inbx) (wmat x1 offw inbw) acc (ix2 o q) = acc (ix2 o q) + tapSum x0 x1 o q k := by
  refine (tap_apply _ _ acc o q).trans (congrArg (acc (ix2 o q) + ·) ?_)
  refine Finset.sum_congr rfl fun c _ => ?_
  rw [wmat_apply x1 offw inbw k hw0 hw1 hw2 o c,
    win_apply x0 offx inbx ⟨k.val / 3, by have := k.isLt; omega⟩ ⟨k.val % 3, by omega⟩ hx0 hx1 hx2 hx3 c q]

/-- The cleared accumulator is zero everywhere. -/
theorem clear_apply (j : S128x12100.Idx) : clear (F := Ideal) j = 0 := Ideal.ofBits_zero_f32

/-- The bias step at an entry. -/
theorem addBias_apply (acc : FVec Ideal S128x12100 .f32) (b : Vec Ideal S128x1 .f32) (o : Fin 128) (q : Fin 12100) :
    addBias acc b (ix3 (0 : Fin 1) o q) = acc (ix2 o q) + b (ix2 o (0 : Fin 1)) := by
  unfold addBias
  refine (shapeCast_apply _ shapeCasts_S128x12100_S1x128x12100 (ix3 (0 : Fin 1) o q) (ix2 o q)
    (by rw [Shape.rowMajor_val_three, Shape.rowMajor_val_two]; show o.val * 12100 + q.val = (0 * 128 + o.val) * 12100 + q.val; omega)).trans ?_
  refine congrArg (acc (ix2 o q) + ·) ?_
  exact broadcastTo_apply b broadcasts_S128x1_S128x12100 (ix2 o q) (ix2 o (0 : Fin 1)) (fun a => match a with
    | ⟨0, _⟩ => by show o.val = if (128 : Nat) = 1 then 0 else o.val; rw [if_neg (by decide)]
    | ⟨1, _⟩ => by show 0 = if (1 : Nat) = 1 then 0 else q.val; rw [if_pos rfl])

/-- A sum over nine terms, associated to the left from zero: the order the accumulator adds them in. -/
theorem sum_nine {M : Type*} [AddCommMonoid M] (f : Fin 9 → M) :
    ∑ k, f k = 0 + f 0 + f 1 + f 2 + f 3 + f 4 + f 5 + f 6 + f 7 + f 8 := by
  simp only [Fin.sum_univ_castSucc, Fin.sum_univ_zero]; rfl

/-- The block the body writes, at entry (o, q): the nine taps' channel sums, plus the bias of row o. -/
theorem block_apply (x0 : Vec Ideal S1x64x112x112 .f32) (x1 : Vec Ideal S9x128x64 .f32) (x2 : Vec Ideal S128x1 .f32)
    (o : Fin 128) (q : Fin 12100) :
    block x0 x1 x2 (ix3 (0 : Fin 1) o q) = (∑ k : Fin 9, tapSum x0 x1 o q k) + x2 (ix2 o (0 : Fin 1)) := by
  unfold block
  refine (addBias_apply _ x2 o q).trans (congrArg (· + x2 (ix2 o (0 : Fin 1))) ?_)
  rw [tap_sum x0 x1 _ _ _ _ 8 rfl rfl rfl rfl rfl rfl rfl, tap_sum x0 x1 _ _ _ _ 7 rfl rfl rfl rfl rfl rfl rfl,
    tap_sum x0 x1 _ _ _ _ 6 rfl rfl rfl rfl rfl rfl rfl, tap_sum x0 x1 _ _ _ _ 5 rfl rfl rfl rfl rfl rfl rfl,
    tap_sum x0 x1 _ _ _ _ 4 rfl rfl rfl rfl rfl rfl rfl, tap_sum x0 x1 _ _ _ _ 3 rfl rfl rfl rfl rfl rfl rfl,
    tap_sum x0 x1 _ _ _ _ 2 rfl rfl rfl rfl rfl rfl rfl, tap_sum x0 x1 _ _ _ _ 1 rfl rfl rfl rfl rfl rfl rfl,
    tap_sum x0 x1 _ _ _ _ 0 rfl rfl rfl rfl rfl rfl rfl, clear_apply, sum_nine]

end Cert.KernelIdeal.Body

end
-- ==== Proof.ConvArray.lean ====
/-
  From the blocks to the array.

  Grid point n stages image n whole, the stacked weights whole and the bias whole, and writes back row block n of the
  16 × 128 × 12100 result.  What it writes is the convolution of image n: so the result array, whose sixteen blocks
  are written at the sixteen points, ends as ONE function of the three arrays the call finds —
    out(n, o, 110·h + w) = ∑ over taps k and channels c of W(k, o, c) · X(n, c, h + k / 3, w + k % 3), plus B(o).
-/
import proofs.«104167_j11776800325854_1_alg».proof.Proof.ConvBodyValue
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Conv

open Cert.KernelIdeal Cert.KernelIdeal.Gen Cert.KernelIdeal.Body

/-- The convolution over stacked weights W(k, o, c), at image n, output channel o and flattened position q. -/
def conv (X : S16x64x112x112.Idx → EReal) (W : S9x128x64.Idx → EReal) (B : S128x1.Idx → EReal)
    (n : Fin 16) (o : Fin 128) (q : Fin 12100) : EReal :=
  (∑ k : Fin 9, ∑ c : Fin 64, W (ix3 k o c) *
      X (ix4 n c (⟨q.val / 110 + k.val / 3, by have := q.isLt; have := k.isLt; omega⟩ : Fin 112)
        (⟨q.val % 110 + k.val % 3, by omega⟩ : Fin 112)))
    + B (ix2 o (0 : Fin 1))

/-- The whole result array of the call. -/
def G (X : S16x64x112x112.Idx → EReal) (W : S9x128x64.Idx → EReal) (B : S128x1.Idx → EReal) : S16x128x12100.Idx → EReal :=
  fun i => conv X W B (i 0) (i 1) (i 2)

/-- A body that holds image n of X, all of W and all of B writes the convolution of image n. -/
theorem block_point (X : S16x64x112x112.Idx → EReal) (W : S9x128x64.Idx → EReal) (B : S128x1.Idx → EReal)
    (x0 : Vec Ideal S1x64x112x112 .f32) (x1 : Vec Ideal S9x128x64 .f32) (x2 : Vec Ideal S128x1 .f32) (n : Fin 16)
    (h0 : ∀ (c : Fin 64) (h w : Fin 112), x0 (ix4 (0 : Fin 1) c h w) = X (ix4 n c h w)) (h1 : x1 = W) (h2 : x2 = B)
    (y : S1x128x12100.Idx) : block x0 x1 x2 y = G X W B (ix3 n (y 1) (y 2)) := by
  obtain ⟨z, o, q, rfl⟩ : ∃ (z : Fin 1) (o : Fin 128) (q : Fin 12100), y = ix3 z o q := ⟨y 0, y 1, y 2, eq_ix3 y⟩
  obtain rfl : z = 0 := Subsingleton.elim _ _
  subst h1 h2
  refine (block_apply x0 x1 x2 o q).trans ?_
  show _ = conv X x1 x2 n o q
  unfold conv tapSum
  refine congrArg (· + x2 (ix2 o (0 : Fin 1))) ?_
  refine Finset.sum_congr rfl fun k _ => Finset.sum_congr rfl fun c _ => ?_
  exact congrArg (x1 (ix3 k o c) * ·) (h0 c _ _)

variable (m : (ℓ : Loc nD τ sig) → Buf (Elt Ideal) ℓ) (ρ : Dev nD → PrngReg)

/-- The printed index maps over the grid: the image and the result move with the point, the weights and the bias stay. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- What point t writes back is block t of the convolution of the arrays as the call finds them. -/
theorem flushed_eq (c : Dev nD) (t : Fin cfg0.N) :
    (dats m 0 c).flushed 3 t
      = ((cfg0.win 3).blk t).view.read (Elt Ideal) (G (V m c main_arg0) (V m c main_v1) (V m c main_arg2)) := by
  show (cfg0.win 3).cut (grid0.coords t) ((dats m 0 c).after 3 t) = _
  rw [after0_3]
  unfold outsAt0
  rw [out_eq]
  obtain ⟨a0, a1, a2, a3, b0, b1, b2, c0, c1, d0, d1, d2⟩ := idx_facts t
  have hN : cfg0.N = 16 := N_0
  funext y
  show block (iblk m c 0 t) (iblk m c 1 t) (iblk m c 2 t) y
    = G (V m c main_arg0) (V m c main_v1) (V m c main_arg2) (((cfg0.win 3).blk t).view.emb y)
  refine (block_point (V m c main_arg0) (V m c main_v1) (V m c main_arg2) (iblk m c 0 t) (iblk m c 1 t) (iblk m c 2 t)
    ⟨t.val, by have := t.isLt; omega⟩ ?_ ?_ ?_ y).trans ?_
  · intro ch h w
    show V m c main_arg0 (((cfg0.win 0).blk t).view.emb (ix4 (0 : Fin 1) ch h w)) = V m c main_arg0 _
    refine congrArg (V m c main_arg0) (funext fun a => Fin.ext ?_)
    match a with
    | ⟨0, _⟩ => show win0_0.index t (0 : Fin 4) * 1 + 1 * 0 = t.val; omega
    | ⟨1, _⟩ => show win0_0.index t (1 : Fin 4) * 64 + 1 * ch.val = ch.val; omega
    | ⟨2, _⟩ => show win0_0.index t (2 : Fin 4) * 112 + 1 * h.val = h.val; omega
    | ⟨3, _⟩ => show win0_0.index t (3 : Fin 4) * 112 + 1 * w.val = w.val; omega
  · funext j
    show V m c main_v1 (((cfg0.win 1).blk t).view.emb j) = V m c main_v1 j
    refine congrArg (V m c main_v1) (funext fun a => Fin.ext ?_)
    match a with
    | ⟨0, _⟩ => show win0_1.index t (0 : Fin 3) * 9 + 1 * (j 0).val = (j 0).val; omega
    | ⟨1, _⟩ => show win0_1.index t (1 : Fin 3) * 128 + 1 * (j 1).val = (j 1).val; omega
    | ⟨2, _⟩ => show win0_1.index t (2 : Fin 3) * 64 + 1 * (j 2).val = (j 2).val; omega
  · funext j
    show V m c main_arg2 (((cfg0.win 2).blk t).view.emb j) = V m c main_arg2 j
    refine congrArg (V m c main_arg2) (funext fun a => Fin.ext ?_)
    match a with
    | ⟨0, _⟩ => show win0_2.index t (0 : Fin 2) * 128 + 1 * (j 0).val = (j 0).val; omega
    | ⟨1, _⟩ => show win0_2.index t (1 : Fin 2) * 1 + 1 * (j 1).val = (j 1).val; omega
  · refine congrArg (G (V m c main_arg0) (V m c main_v1) (V m c main_arg2)) (funext fun a => Fin.ext ?_)
    have hy0 : (y 0).val < 1 := (y 0).isLt
    match a with
    | ⟨0, _⟩ => show t.val = win0_3.index t (0 : Fin 3) * 1 + 1 * (y 0).val; omega
    | ⟨1, _⟩ => show (y 1).val = win0_3.index t (1 : Fin 3) * 128 + 1 * (y 1).val; omega
    | ⟨2, _⟩ => show (y 2).val = win0_3.index t (2 : Fin 3) * 12100 + 1 * (y 2).val; omega

/-- An index of the result lies in point t's block iff each coordinate lies in the block's range on its axis. -/
theorem mem_blk (t : Fin cfg0.N) (i : S16x128x12100.Idx) :
    i ∈ ((cfg0.win 3).blk t).view.set ↔ ∀ a : Fin 3, win0_3.index t a * S1x128x12100.size a ≤ (i a).val
      ∧ (i a).val < win0_3.index t a * S1x128x12100.size a + S1x128x12100.size a := by
  show i ∈ ((View.whole main_v2).slice (win0_3.rect t)).set ↔ _
  rw [View.set_slice_whole, Rect.mem_set_unit]
  exact Iff.rfl

/-- The result array after the call: the convolution of the arrays the call finds. -/
theorem final (c : Dev nD) :
    (dats m 0 c).arrAt 3 cfg0.N = G (V m c main_arg0) (V m c main_v1) (V m c main_arg2) :=
  (dats m 0 c).arrAt_eq_of_cover 3 _ (fun t _ => flushed_eq m c t) fun i => by
    have hN : cfg0.N = 16 := N_0
    have hi0 : (i 0).val < 16 := (i 0).isLt
    have hi1 : (i 1).val < 128 := (i 1).isLt
    have hi2 : (i 2).val < 12100 := (i 2).isLt
    let t : Fin cfg0.N := ⟨(i 0).val, by omega⟩
    obtain ⟨a0, a1, a2, a3, b0, b1, b2, c0, c1, d0, d1, d2⟩ := idx_facts t
    refine ⟨t, flush0_3 t, ?_⟩
    rw [mem_blk]
    intro a
    match a with
    | ⟨0, _⟩ => show win0_3.index t (0 : Fin 3) * 1 ≤ (i 0).val ∧ (i 0).val < win0_3.index t (0 : Fin 3) * 1 + 1
                have : t.val = (i 0).val := rfl
                omega
    | ⟨1, _⟩ => show win0_3.index t (1 : Fin 3) * 128 ≤ (i 1).val ∧ (i 1).val < win0_3.index t (1 : Fin 3) * 128 + 128; omega
    | ⟨2, _⟩ => show win0_3.index t (2 : Fin 3) * 12100 ≤ (i 2).val ∧ (i 2).val < win0_3.index t (2 : Fin 3) * 12100 + 12100; omega

end Cert.KernelIdeal.Conv

end
-- ==== Proof.ConvRun.lean ====
/-
  The kernel's whole program, run and read.

  Before the call the host lays the 128 × 576 weights out as nine 128 × 64 matrices, W(k, o, c) = weight(o, 9·c + k):
  the weight row is read as 64 channels of 9 taps and the tap axis is moved to the front.  After the call it reads the
  16 × 128 × 12100 result as 16 × 128 × 110 × 110, position q = 110·h + w.  So the program's result at (n, o, h, w) is the
  convolution over the stacked weights at (n, o, 110·h + w).
-/
import proofs.«104167_j11776800325854_1_alg».proof.Proof.ConvArray
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Conv

open Cert.KernelIdeal Cert.KernelIdeal.Gen Cert.KernelIdeal.Body

variable (m : (ℓ : Loc nD τ sig) → Buf (Elt Ideal) ℓ) (ρ : Dev nD → PrngReg)

/-- The stacked weights as the call finds them: the weights regrouped and the tap axis moved to the front. -/
theorem V_weights (c : Dev nD) :
    (V m c main_v1 : S9x128x64.Idx → EReal)
      = transpose S9x128x64 [2, 0, 1] (shapeCast S128x64x9 (m ((c : Thread nD τ).loc main_arg1)) shapeCasts_S128x576_S128x64x9)
          transposes_S128x64x9_S9x128x64_2_0_1 := by
  show StableHlo.after hostOps0 (fun b => m (c, b)) (Proc.devRef .tc main_v1) = _
  after_results
  rfl

/-- The stacked weights at an entry: tap k, output channel o, input channel c is entry 9·c + k of weight row o. -/
theorem V_weights_apply (c : Dev nD) (k : Fin 9) (o : Fin 128) (ch : Fin 64) :
    V m c main_v1 (ix3 k o ch)
      = m ((c : Thread nD τ).loc main_arg1) (ix2 o (⟨ch.val * 9 + k.val, by have := ch.isLt; have := k.isLt; omega⟩ : Fin 576)) := by
  refine (congrFun (V_weights m c) (ix3 k o ch)).trans ?_
  refine (transpose_apply [2, 0, 1] _ transposes_S128x64x9_S9x128x64_2_0_1 (ix3 k o ch) (ix3 o ch k) (fun b => match b with
    | ⟨0, _⟩ => rfl
    | ⟨1, _⟩ => rfl
    | ⟨2, _⟩ => rfl)).trans ?_
  exact shapeCast_apply _ shapeCasts_S128x576_S128x64x9 (ix3 o ch k)
    (ix2 o (⟨ch.val * 9 + k.val, by have := ch.isLt; have := k.isLt; omega⟩ : Fin 576))
    (by rw [Shape.rowMajor_val_two, Shape.rowMajor_val_three]
        show o.val * 576 + (ch.val * 9 + k.val) = (o.val * 64 + ch.val) * 9 + k.val; omega)

/-- The program's result buffer after the lines that follow the call: the call's result array, re-read with the
    flattened positions split into rows and columns. -/
theorem tail_eq (c : Dev nD) :
    Pipeline.afterTail₀ cfgs (dats m) 0 (V0 m) [hostOps1] c main_v3
      = shapeCast S16x128x110x110 (G (V m c main_arg0) (V m c main_v1) (V m c main_arg2)) shapeCasts_S16x128x12100_S16x128x110x110 := by
  unfold Pipeline.afterTail₀
  show StableHlo.after hostOps1 _ (Proc.devRef .tc main_v3) = _
  after_results
  exact congrArg (fun A => shapeCast S16x128x110x110 A shapeCasts_S16x128x12100_S16x128x110x110)
    ((Pipeline.withArrays_arr spec0 launch0.win.arr_inj c (V0 m c) (fun w => (dats m 0 c).arrAt w (cfgs 0).N) 3).trans (final m c))

/-- The program's result: the convolution over the stacked weights, positions split into rows and columns. -/
def result (c : Dev nD) : S16x128x110x110.Idx → EReal :=
  shapeCast S16x128x110x110
    (G (m ((c : Thread nD τ).loc main_arg0)) (V m c main_v1) (m ((c : Thread nD τ).loc main_arg2)))
    shapeCasts_S16x128x12100_S16x128x110x110

/-- The run, read: the result buffer ends at the convolution of the argument arrays, which end unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans
        ((tail_eq m c).trans (by unfold result; rw [V_main_arg0, V_main_arg2])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

/-- The three argument arrays, as functions into the extended reals. -/
abbrev argX (c : Dev nD) : S16x64x112x112.Idx → EReal := m ((c : Thread nD τ).loc main_arg0)
abbrev argW (c : Dev nD) : S128x576.Idx → EReal := m ((c : Thread nD τ).loc main_arg1)
abbrev argB (c : Dev nD) : S128x1.Idx → EReal := m ((c : Thread nD τ).loc main_arg2)

/-- The program's result at image n, output channel o, position (h, w): nine taps of 64 channels, the weight row read
    at 9·c + k, plus the bias. -/
theorem result_apply (c : Dev nD) (n : Fin 16) (o : Fin 128) (h w : Fin 110) :
    result m c (ix4 n o h w)
      = (∑ k : Fin 9, ∑ ch : Fin 64,
          argW m c (ix2 o (⟨ch.val * 9 + k.val, by have := ch.isLt; have := k.isLt; omega⟩ : Fin 576)) *
            argX m c
              (ix4 n ch (⟨(h.val * 110 + w.val) / 110 + k.val / 3, by have := h.isLt; have := w.isLt; have := k.isLt; omega⟩ : Fin 112)
                (⟨(h.val * 110 + w.val) % 110 + k.val % 3, by omega⟩ : Fin 112)))
        + argB m c (ix2 o (0 : Fin 1)) := by
  have hh := h.isLt; have hw := w.isLt
  unfold result
  refine (shapeCast_apply _ shapeCasts_S16x128x12100_S16x128x110x110 (ix4 n o h w)
    (ix3 n o (⟨h.val * 110 + w.val, by omega⟩ : Fin 12100))
    (by rw [Shape.rowMajor_val_three, Shape.rowMajor_val_four]
        show (n.val * 128 + o.val) * 12100 + (h.val * 110 + w.val) = ((n.val * 128 + o.val) * 110 + h.val) * 110 + w.val; omega)).trans ?_
  show conv _ _ _ n o (⟨h.val * 110 + w.val, by omega⟩ : Fin 12100) = _
  unfold conv
  refine congrArg (· + argB m c (ix2 o (0 : Fin 1))) ?_
  exact Finset.sum_congr rfl fun k _ => Finset.sum_congr rfl fun ch _ => by rw [V_weights_apply m c k o ch]

end Cert.KernelIdeal.Conv

end
-- ==== Proof.RefConv.lean ====
/-
  The reference, entry by entry, on the extended reals.

  The reference gathers, for every image n and output position (h, w), the 576 numbers X(n, c, h + i, w + j) — channel c
  outermost, the stencil offset (i, j) = (k / 3, k % 3) innermost, row p = 9·c + k of a 576 × 193600 matrix whose column
  is 12100·n + 110·h + w — multiplies by the 128 × 576 weights, adds the bias down the columns, and lays the columns back
  out as images.  So its entry (n, o, h, w) is
    ∑ over p < 576 of weight(o, p) · X(n, p / 9, h + (p % 9) / 3, w + (p % 9) % 3), plus bias(o).
  The nine shifted copies are joined along a unit axis: entry k of that axis is the k-th shifted copy.
-/
import proofs.«104167_j11776800325854_1_alg».proof.Proof.Gen.ReferenceIdeal.Read
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.ReferenceIdeal.Conv

open Cert.ReferenceIdeal Cert.ReferenceIdeal.Gen Cert.ReferenceIdeal.Read

/-- The k-th shifted copy of the image, with its unit axis: the window at stencil offset (k / 3, k % 3). -/
def piece (x0 : S16x64x112x112.Idx → EReal) : Fin 9 → (S16x64x1x110x110.Idx → EReal)
  | ⟨0, _⟩ => val_main_v9 (F := Ideal) x0
  | ⟨1, _⟩ => val_main_v10 (F := Ideal) x0
  | ⟨2, _⟩ => val_main_v11 (F := Ideal) x0
  | ⟨3, _⟩ => val_main_v12 (F := Ideal) x0
  | ⟨4, _⟩ => val_main_v13 (F := Ideal) x0
  | ⟨5, _⟩ => val_main_v14 (F := Ideal) x0
  | ⟨6, _⟩ => val_main_v15 (F := Ideal) x0
  | ⟨7, _⟩ => val_main_v16 (F := Ideal) x0
  | ⟨8, _⟩ => val_main_v17 (F := Ideal) x0

/-- The k-th shifted copy at an entry. -/
theorem piece_apply (x0 : S16x64x112x112.Idx → EReal) (k : Fin 9) (n : Fin 16) (c : Fin 64) (h w : Fin 110) :
    piece x0 k (ix5 n c (0 : Fin 1) h w)
      = x0 (ix4 n c (⟨h.val + k.val / 3, by have := h.isLt; have := k.isLt; omega⟩ : Fin 112)
          (⟨w.val + k.val % 3, by have := w.isLt; omega⟩ : Fin 112)) := by
  match k with
  | ⟨0, _⟩ =>
    refine (val_main_v9_apply (F := Ideal) x0 (ix5 n c (0 : Fin 1) h w)).trans ?_
    refine (val_main_v0_apply (F := Ideal) x0 (idx_main_v9 (ix5 n c (0 : Fin 1) h w))).trans ?_
    refine congrArg x0 (funext fun a => Fin.ext ?_)
    match a with
    | ⟨0, _⟩ => rfl
    | ⟨1, _⟩ => rfl
    | ⟨2, _⟩ => show h.val = h.val + 0 / 3; omega
    | ⟨3, _⟩ => show w.val = w.val + 0 % 3; omega
  | ⟨1, _⟩ =>
    refine (val_main_v10_apply (F := Ideal) x0 (ix5 n c (0 : Fin 1) h w)).trans ?_
    refine (val_main_v1_apply (F := Ideal) x0 (idx_main_v10 (ix5 n c (0 : Fin 1) h w))).trans ?_
    refine congrArg x0 (funext fun a => Fin.ext ?_)
    match a with
    | ⟨0, _⟩ => rfl
    | ⟨1, _⟩ => rfl
    | ⟨2, _⟩ => show h.val = h.val + 1 / 3; omega
    | ⟨3, _⟩ => show 1 + w.val = w.val + 1 % 3; omega
  | ⟨2, _⟩ =>
    refine (val_main_v11_apply (F := Ideal) x0 (ix5 n c (0 : Fin 1) h w)).trans ?_
    refine (val_main_v2_apply (F := Ideal) x0 (idx_main_v11 (ix5 n c (0 : Fin 1) h w))).trans ?_
    refine congrArg x0 (funext fun a => Fin.ext ?_)
    match a with
    | ⟨0, _⟩ => rfl
    | ⟨1, _⟩ => rfl
    | ⟨2, _⟩ => show h.val = h.val + 2 / 3; omega
    | ⟨3, _⟩ => show 2 + w.val = w.val + 2 % 3; omega
  | ⟨3, _⟩ =>
    refine (val_main_v12_apply (F := Ideal) x0 (ix5 n c (0 : Fin 1) h w)).trans ?_
    refine (val_main_v3_apply (F := Ideal) x0 (idx_main_v12 (ix5 n c (0 : Fin 1) h w))).trans ?_
    refine congrArg x0 (funext fun a => Fin.ext ?_)
    match a with
    | ⟨0, _⟩ => rfl
    | ⟨1, _⟩ => rfl
    | ⟨2, _⟩ => show 1 + h.val = h.val + 3 / 3; omega
    | ⟨3, _⟩ => show w.val = w.val + 3 % 3; omega
  | ⟨4, _⟩ =>
    refine (val_main_v13_apply (F := Ideal) x0 (ix5 n c (0 : Fin 1) h w)).trans ?_
    refine (val_main_v4_apply (F := Ideal) x0 (idx_main_v13 (ix5 n c (0 : Fin 1) h w))).trans ?_
    refine congrArg x0 (funext fun a => Fin.ext ?_)
    match a with
    | ⟨0, _⟩ => rfl
    | ⟨1, _⟩ => rfl
    | ⟨2, _⟩ => show 1 + h.val = h.val + 4 / 3; omega
    | ⟨3, _⟩ => show 1 + w.val = w.val + 4 % 3; omega
  | ⟨5, _⟩ =>
    refine (val_main_v14_apply (F := Ideal) x0 (ix5 n c (0 : Fin 1) h w)).trans ?_
    refine (val_main_v5_apply (F := Ideal) x0 (idx_main_v14 (ix5 n c (0 : Fin 1) h w))).trans ?_
    refine congrArg x0 (funext fun a => Fin.ext ?_)
    match a with
    | ⟨0, _⟩ => rfl
    | ⟨1, _⟩ => rfl
    | ⟨2, _⟩ => show 1 + h.val = h.val + 5 / 3; omega
    | ⟨3, _⟩ => show 2 + w.val = w.val + 5 % 3; omega
  | ⟨6, _⟩ =>
    refine (val_main_v15_apply (F := Ideal) x0 (ix5 n c (0 : Fin 1) h w)).trans ?_
    refine (val_main_v6_apply (F := Ideal) x0 (idx_main_v15 (ix5 n c (0 : Fin 1) h w))).trans ?_
    refine congrArg x0 (funext fun a => Fin.ext ?_)
    match a with
    | ⟨0, _⟩ => rfl
    | ⟨1, _⟩ => rfl
    | ⟨2, _⟩ => show 2 + h.val = h.val + 6 / 3; omega
    | ⟨3, _⟩ => show w.val = w.val + 6 % 3; omega
  | ⟨7, _⟩ =>
    refine (val_main_v16_apply (F := Ideal) x0 (ix5 n c (0 : Fin 1) h w)).trans ?_
    refine (val_main_v7_apply (F := Ideal) x0 (idx_main_v16 (ix5 n c (0 : Fin 1) h w))).trans ?_
    refine congrArg x0 (funext fun a => Fin.ext ?_)
    match a with
    | ⟨0, _⟩ => rfl
    | ⟨1, _⟩ => rfl
    | ⟨2, _⟩ => show 2 + h.val = h.val + 7 / 3; omega
    | ⟨3, _⟩ => show 1 + w.val = w.val + 7 % 3; omega
  | ⟨8, _⟩ =>
    refine (val_main_v17_apply (F := Ideal) x0 (ix5 n c (0 : Fin 1) h w)).trans ?_
    refine (val_main_v8_apply (F := Ideal) x0 (idx_main_v17 (ix5 n c (0 : Fin 1) h w))).trans ?_
    refine congrArg x0 (funext fun a => Fin.ext ?_)
    match a with
    | ⟨0, _⟩ => rfl
    | ⟨1, _⟩ => rfl
    | ⟨2, _⟩ => show 2 + h.val = h.val + 8 / 3; omega
    | ⟨3, _⟩ => show 2 + w.val = w.val + 8 % 3; omega

/-- The nine copies joined along the unit axis, at an entry: coordinate k of the joined axis picks copy k. -/
theorem joined_apply (x0 : S16x64x112x112.Idx → EReal) (n : Fin 16) (c : Fin 64) (k : Fin 9) (h w : Fin 110) :
    val_main_v18 (F := Ideal) x0 (ix5 n c k h w)
      = x0 (ix4 n c (⟨h.val + k.val / 3, by have := h.isLt; have := k.isLt; omega⟩ : Fin 112)
          (⟨w.val + k.val % 3, by have := w.isLt; omega⟩ : Fin 112)) := by
  unfold val_main_v18
  show concatenate S16x64x9x110x110 2 (List.ofFn fun k : Fin 9 => (⟨S16x64x1x110x110, piece x0 k⟩ : (s : Shape) × (s.Idx → EReal)))
    concatenates_S16x64x1x110x110_S16x64x1x110x110_S16x64x1x110x110_S16x64x1x110x110_S16x64x1x110x110_S16x64x1x110x110_S16x64x1x110x110_S16x64x1x110x110_S16x64x1x110x110_S16x64x9x110x110_d2 (ix5 n c k h w) = _
  refine (concatenate_ofFn_unit_apply (t := S16x64x9x110x110) (s₁ := S16x64x1x110x110) 2 (piece x0) concatenates_S16x64x1x110x110_S16x64x1x110x110_S16x64x1x110x110_S16x64x1x110x110_S16x64x1x110x110_S16x64x1x110x110_S16x64x1x110x110_S16x64x1x110x110_S16x64x1x110x110_S16x64x9x110x110_d2 rfl rfl
    (ix5 n c k h w) k rfl (ix5 n c (0 : Fin 1) h w) (fun b hb => ?_)).trans (piece_apply x0 k n c h w)
  match b with
  | ⟨0, _⟩ => rfl
  | ⟨1, _⟩ => rfl
  | ⟨2, _⟩ => exact absurd rfl hb
  | ⟨3, _⟩ => rfl
  | ⟨4, _⟩ => rfl

/-- The reference's result at image n, output channel o, position (h, w). -/
def refconv (X : S16x64x112x112.Idx → EReal) (Wt : S128x576.Idx → EReal) (B : S128x1.Idx → EReal)
    (n : Fin 16) (o : Fin 128) (h w : Fin 110) : EReal :=
  (∑ p : Fin 576, Wt (ix2 o p) *
      X (ix4 n (⟨p.val / 9, by have := p.isLt; omega⟩ : Fin 64)
        (⟨h.val + p.val % 9 / 3, by have := h.isLt; omega⟩ : Fin 112)
        (⟨w.val + p.val % 9 % 3, by have := w.isLt; omega⟩ : Fin 112)))
    + B (ix2 o (0 : Fin 1))

/-- The column of the gathered matrix that output position (n, h, w) reads. -/
abbrev col (n : Fin 16) (h w : Fin 110) : Fin 193600 :=
  ⟨n.val * 12100 + h.val * 110 + w.val, by have := n.isLt; have := h.isLt; have := w.isLt; omega⟩

/-- Row p of the gathered matrix at that column is the image at channel p / 9, shifted by ((p % 9) / 3, (p % 9) % 3). -/
theorem gathered_apply (x0 : S16x64x112x112.Idx → EReal) (p : Fin 576) (n : Fin 16) (h w : Fin 110) :
    val_main_v20 (F := Ideal) x0 (ix2 p (col n h w))
      = x0 (ix4 n (⟨p.val / 9, by have := p.isLt; omega⟩ : Fin 64)
          (⟨h.val + p.val % 9 / 3, by have := h.isLt; omega⟩ : Fin 112)
          (⟨w.val + p.val % 9 % 3, by have := w.isLt; omega⟩ : Fin 112)) := by
  have hp := p.isLt; have hn := n.isLt; have hh := h.isLt; have hw := w.isLt
  refine (val_main_v20_apply (F := Ideal) x0 _).trans ((val_main_v19_apply (F := Ideal) x0 _).trans ?_)
  have e : idx_main_v19 (idx_main_v20 (ix2 p (col n h w)))
      = ix5 n (⟨p.val / 9, by omega⟩ : Fin 64) (⟨p.val % 9, by omega⟩ : Fin 9) h w := funext fun a => Fin.ext (by
    match a with
    | ⟨0, _⟩ => show (p.val * 193600 + (n.val * 12100 + h.val * 110 + w.val)) / 12100 % 16 = n.val; omega
    | ⟨1, _⟩ => show (p.val * 193600 + (n.val * 12100 + h.val * 110 + w.val)) / 1742400 = p.val / 9; omega
    | ⟨2, _⟩ => show (p.val * 193600 + (n.val * 12100 + h.val * 110 + w.val)) / 193600 % 9 = p.val % 9; omega
    | ⟨3, _⟩ => show (p.val * 193600 + (n.val * 12100 + h.val * 110 + w.val)) / 110 % 110 = h.val; omega
    | ⟨4, _⟩ => show (p.val * 193600 + (n.val * 12100 + h.val * 110 + w.val)) % 110 = w.val; omega)
  rw [e]
  exact joined_apply x0 n _ _ h w

/-- The reference's result array, entry by entry. -/
theorem result_apply (x0 : S16x64x112x112.Idx → EReal) (x1 : S128x576.Idx → EReal) (x2 : S128x1.Idx → EReal)
    (n : Fin 16) (o : Fin 128) (h w : Fin 110) :
    val_main_v25 (F := Ideal) x0 x1 x2 (ix4 n o h w) = refconv x0 x1 x2 n o h w := by
  have hn := n.isLt; have ho := o.isLt; have hh := h.isLt; have hw := w.isLt
  refine (val_main_v25_apply (F := Ideal) x0 x1 x2 _).trans ((val_main_v24_apply (F := Ideal) x0 x1 x2 _).trans ((val_main_v23_apply (F := Ideal) x0 x1 x2 _).trans ?_))
  have e : idx_main_v24 (idx_main_v25 (ix4 n o h w)) = ix2 o (col n h w) := funext fun a => Fin.ext (by
    match a with
    | ⟨0, _⟩ => show (((o.val * 16 + n.val) * 110 + h.val) * 110 + w.val) / 193600 = o.val; omega
    | ⟨1, _⟩ => show (((o.val * 16 + n.val) * 110 + h.val) * 110 + w.val) % 193600 = n.val * 12100 + h.val * 110 + w.val; omega)
  rw [e]
  show val_main_v21 (F := Ideal) x0 x1 (ix2 o (col n h w)) + val_main_v22 (F := Ideal) x2 (ix2 o (col n h w)) = _
  unfold refconv
  refine congrArg₂ (· + ·) ?_ ?_
  · refine (val_main_v21_apply x0 x1 _).trans (Finset.sum_congr rfl fun p _ => ?_)
    refine congrArg₂ (· * ·) (congrArg x1 (funext fun a => Fin.ext (by
      match a with
      | ⟨0, _⟩ => rfl
      | ⟨1, _⟩ => rfl))) ?_
    have e2 : ridx_main_v21 (ix2 o (col n h w)) p = ix2 p (col n h w) := funext fun a => Fin.ext (by
      match a with
      | ⟨0, _⟩ => rfl
      | ⟨1, _⟩ => rfl)
    rw [e2]
    exact gathered_apply x0 p n h w
  · exact (val_main_v22_apply (F := Ideal) x2 _).trans (congrArg x2 (funext fun a => Fin.ext (by
      match a with
      | ⟨0, _⟩ => rfl
      | ⟨1, _⟩ => rfl)))

end Cert.ReferenceIdeal.Conv

end
-- ==== Proof.lean ====
/-
  A 3 × 3 convolution, stride 1, of sixteen 64-channel 112 × 112 images with 128 output channels and a bias: the kernel
  against its reference, on the extended reals.

  The kernel takes one image per grid point, clears a 128 × 12100 accumulator and adds nine matrix products into it, one
  per stencil offset (i, j): the 128 × 64 weights of that offset times the 64 × 12100 matrix of the image's window
  shifted by (i, j); it then adds the bias.  The reference gathers all 576 = 64·9 shifted values of every output position
  into one 576 × 193600 matrix and takes ONE product with the 128 × 576 weights, then adds the bias.  Both results at
  (n, o, h, w) are
      ∑ over c < 64 and k < 9 of weight(o, 9·c + k) · x(n, c, h + k / 3, w + k % 3), plus bias(o):
  the kernel sums k outermost and c innermost from a zero accumulator, the reference sums p = 9·c + k in one go.  Sums of
  extended reals may be regrouped and reordered freely, so the two agree at every input, finite or not; rounding to bf16
  before the products is the identity on the extended reals.

  The modules: ConvBody (what one grid point's body leaves, from the generated run of the body), ConvBodyValue (that
  block entry by entry), ConvArray (the sixteen blocks are one array), ConvRun (the host lines around the call, and the
  whole run), RefConv (the reference's generated run read entry by entry), ConvSpec (the regrouping of the sum).
-/
import proofs.«104167_j11776800325854_1_alg».proof.Defs
import proofs.«104167_j11776800325854_1_alg».proof.Proof.Gen.Kernel
import proofs.«104167_j11776800325854_1_alg».proof.Proof.Gen.Kernel.Skeleton
import proofs.«104167_j11776800325854_1_alg».proof.Proof.Gen.Kernel.Launch
import proofs.«104167_j11776800325854_1_alg».proof.Proof.Gen.Kernel.Points
import proofs.«104167_j11776800325854_1_alg».proof.Proof.Gen.Kernel.Frame
import proofs.«104167_j11776800325854_1_alg».proof.Proof.Gen.KernelIdeal
import proofs.«104167_j11776800325854_1_alg».proof.Proof.Gen.KernelIdeal.Skeleton
import proofs.«104167_j11776800325854_1_alg».proof.Proof.Gen.KernelIdeal.Launch
import proofs.«104167_j11776800325854_1_alg».proof.Proof.Gen.KernelIdeal.Points
import proofs.«104167_j11776800325854_1_alg».proof.Proof.Gen.KernelIdeal.Frame
import proofs.«104167_j11776800325854_1_alg».proof.Proof.Gen.ReferenceIdeal
import proofs.«104167_j11776800325854_1_alg».proof.Proof.Gen.ReferenceIdeal.Read
import proofs.«104167_j11776800325854_1_alg».proof.Proof.Gen.Pre_finite_inputs
import proofs.«104167_j11776800325854_1_alg».proof.Proof.ConvSpec
import proofs.«104167_j11776800325854_1_alg».proof.Proof.ConvRun
import proofs.«104167_j11776800325854_1_alg».proof.Proof.RefConv
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result, at arrays that are the kernel's arguments, is the kernel's result: entry by entry both are
    the sum over the 576 weight-row entries (the kernel's nine taps of 64 channels regrouped), plus the bias. -/
theorem reference_eq_kernel (m : (ℓ : Loc Cert.KernelIdeal.nD Cert.KernelIdeal.τ Cert.KernelIdeal.sig) → Buf (Elt Ideal) ℓ)
    (c : Dev Cert.KernelIdeal.nD)
    (x0 : Cert.ReferenceIdeal.S16x64x112x112.Idx → EReal) (x1 : Cert.ReferenceIdeal.S128x576.Idx → EReal)
    (x2 : Cert.ReferenceIdeal.S128x1.Idx → EReal)
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2)) :
    Cert.ReferenceIdeal.Read.val_main_v25 (F := Ideal) x0 x1 x2 = Cert.KernelIdeal.Conv.result m c := by
  subst h0 h1 h2
  funext i
  obtain ⟨n, o, h, w, rfl⟩ : ∃ (n : Fin 16) (o : Fin 128) (h w : Fin 110), i = ix4 n o h w := ⟨i 0, i 1, i 2, i 3, eq_ix4 i⟩
  refine (Cert.ReferenceIdeal.Conv.result_apply _ _ _ n o h w).trans ?_
  refine Eq.trans ?_ (Cert.KernelIdeal.Conv.result_apply m c n o h w).symm
  unfold Cert.ReferenceIdeal.Conv.refconv
  exact congrArg (· + _) (Cert.ConvSpec.taps_eq_row _ _ n o h w).symm

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs, from memories that agree on the arguments, end with the convolution of the arguments. -/
theorem algebraic : Cert.algebraic_KernelIdeal_ReferenceIdeal := by
  intro m ρ m' ρ' _ hagree
  refine ⟨_, Cert.KernelIdeal.Conv.run m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.Read.val_main_v25_eq _ _ _).trans
    (reference_eq_kernel m c _ _ _ (hagree c).1 (hagree c).2.1 (hagree c).2.2)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
